-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x26 : Shape := ⟨2, ![4096, 26]⟩
abbrev S4096x1000x26 : Shape := ⟨3, ![4096, 1000, 26]⟩
abbrev S8x26 : Shape := ⟨2, ![8, 26]⟩
abbrev S8x1000x26 : Shape := ⟨3, ![8, 1000, 26]⟩
abbrev S8x1x26 : Shape := ⟨3, ![8, 1, 26]⟩
abbrev S4096x26x1000 : Shape := ⟨3, ![4096, 26, 1000]⟩

abbrev nBuf : Space → Nat
  | .hbm => 3
  | .vmem => 4
  | .smem => 0
  | _ => 0

abbrev bufTy : (tb : Table) → Fin (tcTables nBuf tb) → BufTy
  | .hbm, ⟨0, _⟩ => ⟨S4096x26, .i32⟩
  | .hbm, ⟨1, _⟩ => ⟨S4096x1000x26, .f32⟩
  | .hbm, ⟨2, _⟩ => ⟨S4096x26x1000, .f32⟩
  | .local _ .vmem, ⟨0, _⟩ => ⟨S8x26, .i32⟩
  | .local _ .vmem, ⟨1, _⟩ => ⟨S8x26, .i32⟩
  | .local _ .vmem, ⟨2, _⟩ => ⟨S8x1000x26, .f32⟩
  | .local _ .vmem, ⟨3, _⟩ => ⟨S8x1000x26, .f32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x26 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1000x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x26_S8x26_0_0 : ∀ a, (![0, 0] : Fin 2 → Nat) a + S8x26.size a ≤ S8x26.size a
  h_S8x26 : 0 < S8x26.numel
  iota_S8x1000x26_d1_w32 : S8x1000x26.Iotas .tc 32 [1]
  shapeCasts_S8x26_S8x1x26 : S8x26.ShapeCasts S8x1x26
  broadcasts_S8x1x26_S8x1000x26 : S8x1x26.Broadcasts S8x1000x26
  natLt_1_32 : 1 < 32
  inb_S8x1000x26_S8x1000x26_0_0_0 : ∀ a, (![0, 0, 0] : Fin 3 → Nat) a + S8x1000x26.size a ≤ S8x1000x26.size a
  h_S8x1000x26 : 0 < S8x1000x26.numel
  transposes_S4096x1000x26_S4096x26x1000_0_2_1 : S4096x1000x26.Transposes [0, 2, 1] S4096x26x1000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x26.size a ≤ S4096x26.size a
  hwx0_0 : ∀ i : grid0.Coords, EltTy.bits .i32 = 32 ∨ (Rect.block (s := S4096x26) S8x26.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1000x26.size a ≤ S4096x1000x26.size a
  hwx0_1 : ∀ i : grid0.Coords, EltTy.bits .f32 = 32 ∨ (Rect.block (s := S4096x1000x26) S8x1000x26.size (cc0_transform_1 i) (hinb0_1 i)).WholeWords (EltTy.packing .f32)

variable [Facts₀]

abbrev win0_0 : Pipeline.Window sig grid0 :=
  Pipeline.Window.ofSpec (Memref.whole main_arg0) S8x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1000x26.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x26 : Shape := ⟨2, ![4096, 26]⟩
abbrev S4096x26x1 : Shape := ⟨3, ![4096, 26, 1]⟩
abbrev S1x1x1000 : Shape := ⟨3, ![1, 1, 1000]⟩
abbrev S4096x26x1000 : Shape := ⟨3, ![4096, 26, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1x1x1000, .i32⟩
  | .hbm, ⟨3, _⟩ => ⟨S4096x26x1000, .i32⟩
  | .hbm, ⟨4, _⟩ => ⟨S4096x26x1000, .i32⟩
  | .hbm, ⟨5, _⟩ => ⟨S4096x26x1000, .i1⟩
  | .hbm, ⟨6, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S4096x26_S4096x26x1_0_1 : S4096x26.BroadcastsInDim S4096x26x1 (![0, 1] : Fin 2 → Fin S4096x26x1.rank)
  bcast_S4096x26x1_S4096x26x1000_0_1_2 : S4096x26x1.BroadcastsInDim S4096x26x1000 (![0, 1, 2] : Fin 3 → Fin S4096x26x1000.rank)
  bcast_S1x1x1000_S4096x26x1000_0_1_2 : S1x1x1000.BroadcastsInDim S4096x26x1000 (![0, 1, 2] : Fin 3 → Fin S4096x26x1000.rank)

variable [Facts₀]

class Facts : Prop extends Facts₀ where

variable [Facts]
-- ==== Proof.OneHot.lean ====
/-
  One-hot encoding, as one function of the index array.

  For an array `x` of 32-bit words over [4096, 26] and 1000 classes, the one-hot table over [4096, 26, 1000] holds at
  (b, j, c) the number 1 when the word x[b, j] is the word of the natural number c, and 0 otherwise: the equality test's
  one bit, read as a number. Both programs compute this table; they differ in the way the bit becomes a float. One
  converts the bit itself, unsigned. The other first widens the bit to a 32-bit word by adding zero bits on the left,
  and converts that word SIGNED. The two agree because a 32-bit word whose upper 31 bits are zero has sign bit zero, so
  its signed reading is its unsigned reading, which is the bit (`sitofp_zeroExtend_bit`). Over the extended reals both
  conversions are exact, so nothing is rounded and no finiteness is used.
-/
import Idealize.ShloMosaic.PureOps.Ideal
import Idealize.ShloMosaic.Lib.ValueIdx

noncomputable section

namespace Cert.OneHot

open Idealize.ShloMosaic Idealize.ShloMosaic.ValueIdx

/-- One bit read as an extended real: 0 or 1. -/
def bitVal (b : BitVec 1) : EReal := ((b.toNat : ℝ) : EReal)

/-- The one-hot table of `x` with 1000 classes: at (b, j, c), the bit "x[b, j] is the word c" as a number. -/
def oneHot (x : (⟨2, ![4096, 26]⟩ : Shape).Idx → BitVec 32) : (⟨3, ![4096, 26, 1000]⟩ : Shape).Idx → EReal :=
  fun i => bitVal (IntOp.cmpi .eq (x (ix2 (n0 := 4096) (n1 := 26) (i 0) (i 1))) (BitVec.ofNat 32 (i 2).val))

/-- The unsigned conversion of a bit to a float, over the extended reals, is the bit's number. -/
theorem uitofp_bit (b : BitVec 1) : FloatOps.uitofp (F := Ideal) .f32 b = bitVal b := rfl

/-- A bit widened with zeros to 32 bits and converted SIGNED is still the bit's number: the widened word is 0 or 1,
    its sign bit is zero. -/
theorem sitofp_zeroExtend_bit (b : BitVec 1) : FloatOps.sitofp (F := Ideal) .f32 (b.setWidth 32) = bitVal b := by
  have h : ∀ b : BitVec 1, (b.setWidth 32).toInt = (b.toNat : ℤ) := by decide
  show (((b.setWidth 32).toInt : ℝ) : EReal) = ((b.toNat : ℝ) : EReal)
  rw [h b, Int.cast_natCast]

end Cert.OneHot

end
-- ==== Proof.KernelBlock.lean ====
/-
  What the kernel body stores, read at one index of its block.

  At a grid point the body holds a block `x0` of 8 rows of the index array, over [8, 26]. It stores a block over
  [8, 1000, 26] — rows, then CLASSES, then positions: at (p, q, r) the bit "x0[p, r] is the word q", widened with zeros
  to 32 bits and converted signed to a float. The body spells this as a comparison of two whole [8, 1000, 26] vectors:
  the counter along the class axis, which at (p, q, r) is the word of q, and the block `x0` given a unit middle axis
  ([8, 26] reshaped to [8, 1, 26], the same elements in the same row-major order) and repeated along it, which at
  (p, q, r) is x0[p, r] whatever q is.
-/
import proofs.«178588_g74560632258595_cont_9to1c4b_788_12_alg».proof.Proof.Gen.KernelIdeal.Skeleton
import Idealize.ShloMosaic.Lib.Pipeline.Value
import Idealize.ShloMosaic.Lib.ValueIdx

noncomputable section

namespace Cert.KernelIdeal.OneHotValue

open Cert.KernelIdeal Cert.KernelIdeal.Gen Idealize.ShloMosaic Idealize.ShloMosaic.ValueIdx

variable {F : FTy → Type} [FloatOps F]

/-- The block with a unit middle axis, repeated along it, read at (p, q, r) is x0[p, r]: the repeat reads the middle
    coordinate 0, and (p, 0, r) of [8, 1, 26] is at the row-major position of (p, r) of [8, 26]. -/
theorem repeated_apply (x0 : Vec F S8x26 .i32) (p : Fin 8) (q : Fin 1000) (r : Fin 26) :
    broadcastTo S8x1000x26 (shapeCast S8x1x26 x0 shapeCasts_S8x26_S8x1x26) broadcasts_S8x1x26_S8x1000x26 (ix3 p q r)
      = x0 (ix2 p r) :=
  (broadcastTo_apply _ broadcasts_S8x1x26_S8x1000x26 (ix3 p q r) (ix3 p (⟨0, Nat.one_pos⟩ : Fin 1) r)
      (fun a => match a with | ⟨0, _⟩ => rfl | ⟨1, _⟩ => rfl | ⟨2, _⟩ => rfl)).trans
    (shapeCast_apply x0 shapeCasts_S8x26_S8x1x26 (ix3 p (⟨0, Nat.one_pos⟩ : Fin 1) r) (ix2 p r) (by
      rw [Shape.rowMajor_val_two, Shape.rowMajor_val_three]
      show p.val * 26 + r.val = (p.val * 1 + 0) * 26 + r.val
      omega))

/-- The stored value at (p, q, r): the widened, signed-converted bit "x0[p, r] is the word q". -/
theorem payload_apply (x0 : Vec F S8x26 .i32) (p : Fin 8) (q : Fin 1000) (r : Fin 26) :
    k0_pay1 (F := F) x0 (ix3 p q r)
      = FloatOps.sitofp .f32 ((IntOp.cmpi .eq (x0 (ix2 p r)) (BitVec.ofNat 32 q.val)).setWidth 32) := by
  have e1 : iota .tc S8x1000x26 32 [1] iota_S8x1000x26_d1_w32 (ix3 p q r) = BitVec.ofNat 32 q.val :=
    iota_single_apply .tc S8x1000x26 32 1 iota_S8x1000x26_d1_w32 (ix3 p q r)
  unfold k0_pay1
  show FloatOps.sitofp .f32 ((IntOp.cmpi .eq
      (broadcastTo S8x1000x26 (shapeCast S8x1x26 x0 shapeCasts_S8x26_S8x1x26) broadcasts_S8x1x26_S8x1000x26 (ix3 p q r))
      (iota .tc S8x1000x26 32 [1] iota_S8x1000x26_d1_w32 (ix3 p q r))).setWidth 32) = _
  rw [e1, repeated_apply]

/-- The same at any index of the block, by its coordinates. -/
theorem payload_at (x0 : Vec F S8x26 .i32) (y : S8x1000x26.Idx) :
    k0_pay1 (F := F) x0 y
      = FloatOps.sitofp .f32 ((IntOp.cmpi .eq (x0 (ix2 (y 0) (y 2))) (BitVec.ofNat 32 (y 1).val)).setWidth 32) :=
  (congrArg (k0_pay1 (F := F) x0) (eq_ix3 y)).trans (payload_apply (F := F) x0 (y 0) (y 1) (y 2))

end Cert.KernelIdeal.OneHotValue

end
-- ==== Proof.KernelArray.lean ====
/-
  The kernel's result as one function of the index array.

  The grid has 512 points. Point t reads rows 8t … 8t+7 of the index array `x` ([4096, 26]) and writes rows 8t … 8t+7
  of an intermediate array over [4096, 1000, 26] whose MIDDLE axis is the class: by the block's formula its entry
  (b, c, j) is the widened, signed-converted bit "x[b, j] is the word c" (`classMajor`). Every row b lies in exactly
  one block, the block of point b / 8, and every point writes its block back, so after the region the whole
  intermediate array is `classMajor x`. The one host operation after the region exchanges the last two axes; the
  result array over [4096, 26, 1000] is therefore the transpose of `classMajor x`, and the index array is unchanged.
-/
import proofs.«178588_g74560632258595_cont_9to1c4b_788_12_alg».proof.Proof.Gen.KernelIdeal.Frame
import proofs.«178588_g74560632258595_cont_9to1c4b_788_12_alg».proof.Proof.KernelBlock
import Idealize.ShloMosaic.Lib.StableHlo.Run

set_option maxRecDepth 16384

noncomputable section

namespace Cert.KernelIdeal.OneHotValue

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]

variable (m : (ℓ : Loc nD τ sig) → Buf (Elt F) ℓ) (ρ : Dev nD → PrngReg)

/-- The intermediate array, classes on the middle axis: at (b, c, j) the bit "x[b, j] is the word c", widened with
    zeros to 32 bits and converted signed. -/
def classMajor (x : S4096x26.Idx → BitVec 32) : S4096x1000x26.Idx → F .f32 :=
  fun i => FloatOps.sitofp .f32 ((IntOp.cmpi .eq (x (ix2 (i 0) (i 2))) (BitVec.ofNat 32 (i 1).val)).setWidth 32)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The two index maps, decided over the grid: at point t both windows are at block row t, and at block 0 on every
    other axis. -/
theorem block_rows : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- What point t writes back is block t of `classMajor` of the index array: entry (p, q, r) of the stored block is
    the bit of row p of the point's input block against class q at position r, and row p of either block is row
    8t + p of its array. -/
theorem flushed_eq (c : Dev nD) (t : Fin cfg0.N) :
    (dats m 0 c).flushed 1 t = ((cfg0.win 1).blk t).view.read (Elt F) (classMajor (V m c main_arg0)) := by
  show (cfg0.win 1).cut (grid0.coords t) ((dats m 0 c).after 1 t) = _
  rw [after0_1]
  unfold out0_1
  rw [View.canon_unit_zero zeros3]
  simp only [View.ld_unit_zero (S := S8x26) zeros2]
  obtain ⟨e0, e1, e2, e3, e4⟩ := block_rows t
  funext j
  show k0_pay1 (iblk m c 0 t) j = classMajor (V m c main_arg0) (((cfg0.win 1).blk t).view.emb j)
  refine (payload_at (iblk m c 0 t) j).trans ?_
  show FloatOps.sitofp .f32 ((IntOp.cmpi .eq (V m c main_arg0 (((cfg0.win 0).blk t).view.emb (ix2 (j 0) (j 2))))
      (BitVec.ofNat 32 (j 1).val)).setWidth 32)
    = FloatOps.sitofp .f32 ((IntOp.cmpi .eq (V m c main_arg0 (ix2 ((((cfg0.win 1).blk t).view.emb j) 0) ((((cfg0.win 1).blk t).view.emb j) 2)))
      (BitVec.ofNat 32 ((((cfg0.win 1).blk t).view.emb j) 1).val)).setWidth 32)
  have h0 : ((cfg0.win 0).blk t).view.emb (ix2 (j 0) (j 2))
      = ix2 ((((cfg0.win 1).blk t).view.emb j) 0) ((((cfg0.win 1).blk t).view.emb j) 2) := by
    funext a; apply Fin.ext
    match a with
    | ⟨0, _⟩ => show win0_0.index t (0 : Fin 2) * 8 + 1 * (j 0).val = win0_1.index t (0 : Fin 3) * 8 + 1 * (j 0).val; omega
    | ⟨1, _⟩ => show win0_0.index t (1 : Fin 2) * 26 + 1 * (j 2).val = win0_1.index t (2 : Fin 3) * 26 + 1 * (j 2).val; omega
  have h1 : ((((cfg0.win 1).blk t).view.emb j) 1).val = (j 1).val := by
    show win0_1.index t (1 : Fin 3) * 1000 + 1 * (j 1).val = (j 1).val; omega
  rw [h0, h1]
  rfl

/-- An index of the intermediate array is in point t's block iff each coordinate is in the block's range on its axis. -/
theorem mem_blk (t : Fin cfg0.N) (i : S4096x1000x26.Idx) :
    i ∈ ((cfg0.win 1).blk t).view.set ↔ ∀ a : Fin 3, win0_1.index t a * S8x1000x26.size a ≤ (i a).val
      ∧ (i a).val < win0_1.index t a * S8x1000x26.size a + S8x1000x26.size a := by
  show i ∈ ((View.whole main_v0).slice (win0_1.rect t)).set ↔ _
  rw [View.set_slice_whole, Rect.mem_set_unit]
  exact Iff.rfl

/-- Every index (b, c, j) of the intermediate array is in the block of point b / 8, which is written back. -/
theorem covered (i : S4096x1000x26.Idx) :
    ∃ t : Fin cfg0.N, (cfg0.win 1).flush t = true ∧ i ∈ ((cfg0.win 1).blk t).view.set := by
  have hi0 : (i 0).val < 4096 := (i 0).isLt
  have hi1 : (i 1).val < 1000 := (i 1).isLt
  have hi2 : (i 2).val < 26 := (i 2).isLt
  have hN : (i 0).val / 8 < cfg0.N := by show _ < grid0.N; rw [N_0]; omega
  obtain ⟨e0, e1, e2, e3, e4⟩ := block_rows ⟨(i 0).val / 8, hN⟩
  refine ⟨⟨(i 0).val / 8, hN⟩, flush0_1 _, ?_⟩
  rw [mem_blk]
  intro a
  match a with
  | ⟨0, _⟩ =>
    show win0_1.index ⟨(i 0).val / 8, hN⟩ (0 : Fin 3) * 8 ≤ (i 0).val ∧ (i 0).val < win0_1.index ⟨(i 0).val / 8, hN⟩ (0 : Fin 3) * 8 + 8
    rw [e2]; show (i 0).val / 8 * 8 ≤ (i 0).val ∧ (i 0).val < (i 0).val / 8 * 8 + 8; omega
  | ⟨1, _⟩ =>
    show win0_1.index ⟨(i 0).val / 8, hN⟩ (1 : Fin 3) * 1000 ≤ (i 1).val ∧ (i 1).val < win0_1.index ⟨(i 0).val / 8, hN⟩ (1 : Fin 3) * 1000 + 1000
    omega
  | ⟨2, _⟩ =>
    show win0_1.index ⟨(i 0).val / 8, hN⟩ (2 : Fin 3) * 26 ≤ (i 2).val ∧ (i 2).val < win0_1.index ⟨(i 0).val / 8, hN⟩ (2 : Fin 3) * 26 + 26
    omega

/-- After the region the whole intermediate array is `classMajor` of the index array. -/
theorem final (c : Dev nD) : (dats m 0 c).arrAt 1 cfg0.N = classMajor (m ((c.tc : Thread nD τ).loc main_arg0)) :=
  (dats m 0 c).arrAt_eq_of_cover 1 (classMajor (V m c main_arg0)) (fun t _ => flushed_eq m c t) covered

/-- The result array after the host line that follows the region: the intermediate array with its last two axes
    exchanged. -/
theorem result_eq (c : Dev nD) :
    Pipeline.afterTail₀ cfgs (dats m) 0 (V0 m) [hostOps1] c main_v1
      = transpose S4096x26x1000 [0, 2, 1] (classMajor (F := F) (m ((c.tc : Thread nD τ).loc main_arg0)))
          Gen.transposes_S4096x1000x26_S4096x26x1000_0_2_1 := by
  unfold Pipeline.afterTail₀
  show StableHlo.after hostOps1 _ (Proc.devRef .tc main_v1) = _
  after_results
  rw [Pipeline.withArrays_arr spec0 launch0.win.arr_inj c _ _ 1, final]

/-- Every weakly fair execution of the kernel's program terminates with the result array at the transpose of
    `classMajor` of the index array, and the index array unchanged. -/
theorem run : θ_run defs (onTc (τ := τ) (main (F := F))) ⟨m, fun _ => 0, ρ⟩ fun r => ∀ c : Dev nD,
      r.2.mem ((c.tc : Thread nD τ).loc main_v1)
        = transpose S4096x26x1000 [0, 2, 1] (classMajor (F := F) (m ((c.tc : Thread nD τ).loc main_arg0)))
            Gen.transposes_S4096x1000x26_S4096x26x1000_0_2_1
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans (result_eq m c),
       ((h c).1 0).trans (((dats m 0 c).arrAt_in 0 rfl _).trans ((A_eq m c 0).trans (V_main_arg0 m c)))⟩)
    (run_main m ρ)

end Cert.KernelIdeal.OneHotValue

end
-- ==== Proof.ReferenceValue.lean ====
/-
  The reference's result as one function of the index array.

  The reference gives the index array `x` ([4096, 26]) a unit last axis, repeats it 1000 times along that axis, compares
  it with the counter 0 … 999 along the same axis (itself repeated over the first two axes), and converts the
  comparison's bit UNSIGNED to a float. Read at (b, j, c): the first operand is x[b, j], the second is the word of c,
  so over the extended reals the entry is the bit "x[b, j] is the word c" as a number — the one-hot table.
-/
import proofs.«178588_g74560632258595_cont_9to1c4b_788_12_alg».proof.Proof.Gen.ReferenceIdeal.Read
import proofs.«178588_g74560632258595_cont_9to1c4b_788_12_alg».proof.Proof.OneHot

noncomputable section

namespace Cert.ReferenceIdeal.OneHotValue

open Cert.ReferenceIdeal Cert.ReferenceIdeal.Read Idealize.ShloMosaic Idealize.ShloMosaic.ValueIdx

variable {F : FTy → Type} [FloatOps F]

/-- The reference's last stage at (b, j, c): the unsigned conversion of the bit "x[b, j] is the word c". -/
theorem stage_apply (x : S4096x26.Idx → BitVec 32) (i : S4096x26x1000.Idx) :
    val_main_v0 (F := F) x i
      = FloatOps.uitofp .f32 (IntOp.cmpi .eq (x (ix2 (i 0) (i 1))) (BitVec.ofNat 32 (i 2).val)) := by
  have e : idx_main_call0_v0 (idx_main_call0_v2 i) = ix2 (i 0) (i 1) :=
    funext fun a => Fin.ext (by match a with | ⟨0, _⟩ => rfl | ⟨1, _⟩ => rfl)
  rw [val_main_v0_apply, val_main_call0_v4_apply, val_main_call0_v2_apply, val_main_call0_v0_apply,
    val_main_call0_v3_apply, val_main_call0_v1_apply, e]
  rfl

/-- Over the extended reals the reference's result is the one-hot table of the index array. -/
theorem stage_eq_oneHot (x : S4096x26.Idx → BitVec 32) : val_main_v0 (F := Ideal) x = Cert.OneHot.oneHot x :=
  funext fun i => (stage_apply (F := Ideal) x i).trans (Cert.OneHot.uitofp_bit _)

end Cert.ReferenceIdeal.OneHotValue

end
-- ==== Proof.lean ====
/-
  One-hot encoding of a [4096, 26] array of 32-bit indices into 1000 classes: the kernel against the reference.

  Both programs end with a float array over [4096, 26, 1000] whose entry (b, j, c) is the bit "x[b, j] is the word c".
  The reference builds it in that order and converts the bit unsigned. The kernel builds it block by block with the
  class on the MIDDLE axis — 512 grid points, 8 rows each —, widens each bit with zeros to a 32-bit word and converts
  that word signed, and one host line then exchanges the last two axes. Over the extended reals both conversions are
  exact, and a word whose upper bits are zero reads the same signed and unsigned, so the two results are one function
  of the index array: the one-hot table (OneHot.lean). The only input is an integer array, so there is nothing to
  assume about it, and no law used here needs finiteness.

  The kernel's value is read off its frame run (KernelBlock.lean: the stored block at an index; KernelArray.lean: the
  blocks tile the intermediate array, and the transpose after the region); the reference's value is its run read one
  operation at a time (ReferenceValue.lean). The idealization changed no operation, so it preserves the program as it
  is.
-/
import proofs.«178588_g74560632258595_cont_9to1c4b_788_12_alg».proof.Defs
import proofs.«178588_g74560632258595_cont_9to1c4b_788_12_alg».proof.Proof.Gen.Kernel
import proofs.«178588_g74560632258595_cont_9to1c4b_788_12_alg».proof.Proof.Gen.Kernel.Skeleton
import proofs.«178588_g74560632258595_cont_9to1c4b_788_12_alg».proof.Proof.Gen.Kernel.Launch
import proofs.«178588_g74560632258595_cont_9to1c4b_788_12_alg».proof.Proof.Gen.Kernel.Points
import proofs.«178588_g74560632258595_cont_9to1c4b_788_12_alg».proof.Proof.Gen.Kernel.Frame
import proofs.«178588_g74560632258595_cont_9to1c4b_788_12_alg».proof.Proof.Gen.KernelIdeal
import proofs.«178588_g74560632258595_cont_9to1c4b_788_12_alg».proof.Proof.Gen.KernelIdeal.Skeleton
import proofs.«178588_g74560632258595_cont_9to1c4b_788_12_alg».proof.Proof.Gen.KernelIdeal.Launch
import proofs.«178588_g74560632258595_cont_9to1c4b_788_12_alg».proof.Proof.Gen.KernelIdeal.Points
import proofs.«178588_g74560632258595_cont_9to1c4b_788_12_alg».proof.Proof.Gen.KernelIdeal.Frame
import proofs.«178588_g74560632258595_cont_9to1c4b_788_12_alg».proof.Proof.Gen.ReferenceIdeal
import proofs.«178588_g74560632258595_cont_9to1c4b_788_12_alg».proof.Proof.Gen.ReferenceIdeal.Run
import proofs.«178588_g74560632258595_cont_9to1c4b_788_12_alg».proof.Proof.Gen.ReferenceIdeal.Read
import proofs.«178588_g74560632258595_cont_9to1c4b_788_12_alg».proof.Proof.OneHot
import proofs.«178588_g74560632258595_cont_9to1c4b_788_12_alg».proof.Proof.KernelArray
import proofs.«178588_g74560632258595_cont_9to1c4b_788_12_alg».proof.Proof.ReferenceValue
import Idealize.ShloMosaic.Adequacy
import Idealize.ShloMosaic.Init

noncomputable section

namespace Cert.Proof

open Idealize.ShloMosaic Idealize.ShloMosaic.ValueIdx Idealize.SL.Sem

/-- The kernel's class-major array with its last two axes exchanged is the one-hot table: entry (b, j, c) of the
    transpose is entry (b, c, j) of the class-major array, the bit "x[b, j] is the word c" widened and converted
    signed, which is the bit's number. -/
theorem transposed_eq_oneHot (x : Cert.KernelIdeal.S4096x26.Idx → BitVec 32) :
    transpose Cert.KernelIdeal.S4096x26x1000 [0, 2, 1] (Cert.KernelIdeal.OneHotValue.classMajor (F := Ideal) x)
        Cert.KernelIdeal.Gen.transposes_S4096x1000x26_S4096x26x1000_0_2_1
      = Cert.OneHot.oneHot x :=
  funext fun j =>
    (transpose_apply [0, 2, 1] (Cert.KernelIdeal.OneHotValue.classMajor (F := Ideal) x)
        Cert.KernelIdeal.Gen.transposes_S4096x1000x26_S4096x26x1000_0_2_1 j (ix3 (j 0) (j 2) (j 1))
        (fun b => match b with | ⟨0, _⟩ => rfl | ⟨1, _⟩ => rfl | ⟨2, _⟩ => rfl)).trans
      (Cert.OneHot.sitofp_zeroExtend_bit _)

theorem frame_k : Cert.frame_Kernel := fun m ρ _ => Cert.Kernel.Gen.frame m ρ
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve beyond the program itself. -/
theorem preserves : Cert.preserves_Kernel_KernelIdeal := trivial

/-- From memories that agree on the index array, both programs end with the one-hot table of that array. -/
theorem algebraic : Cert.algebraic_KernelIdeal_ReferenceIdeal := by
  intro m ρ m' ρ' _ hagree
  refine ⟨fun c => Cert.OneHot.oneHot (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (transposed_eq_oneHot _), (h c).2⟩)
      (Cert.KernelIdeal.OneHotValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v0_eq, Cert.ReferenceIdeal.OneHotValue.stage_eq_oneHot, hagree c]

theorem claim : Cert.Claim :=
  ⟨Cert.Kernel.Gen.facts, Cert.KernelIdeal.Gen.facts, Cert.ReferenceIdeal.Gen.facts,
    frame_k, frame_ki, frame_ri, preserves, algebraic⟩

end Cert.Proof

end
